-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S8192x16x512 : Shape := ⟨3, ![8192, 16, 512]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S8192x16x512 : S_.BroadcastsInDim S8192x16x512 (![] : Fin 0 → Fin S8192x16x512.rank)
  reducesTo_S8192x16x512_S_d0_1_2 : S8192x16x512.ReducesTo [0, 1, 2] S_

variable [Facts]

def fn {F : FTy → Type} [FloatOps F] (main_arg0 : FVec F S8192x512 .f32) (main_arg1 : FVec F S8192x512 .f32) (main_arg2 : FVec F S8192x16x512 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x512 .f32 := Host.absf main_arg1
  let main_cst_0 : FVec F S_ .f32 := constant S_ .f32 0x7F800000#32
  let main_v5 : FVec F S8192x512 .f32 := broadcastInDim S8192x512 ![] bcast_S_S8192x512 main_cst_0
  let main_v6 : IVec S8192x512 1 := cmpf .olt main_v4 main_v5
  let main_c_1 : IVec S_ 1 := constantI S_ 1 1#1
  let main_v7 : IVec S_ 1 := (fun x v => Host.reduce IntOp.andi x v reducesTo_S8192x512_S_d0_1 h_S_) main_v6 main_c_1
  let main_v8 : IVec S_ 1 := andi main_v3 main_v7
  let main_v9 : FVec F S8192x16x512 .f32 := Host.absf main_arg2
  let main_cst_2 : FVec F S_ .f32 := constant S_ .f32 0x7F800000#32
  let main_v10 : FVec F S8192x16x512 .f32 := broadcastInDim S8192x16x512 ![] bcast_S_S8192x16x512 main_cst_2
  let main_v11 : IVec S8192x16x512 1 := cmpf .olt main_v9 main_v10
  let main_c_3 : IVec S_ 1 := constantI S_ 1 1#1
  let main_v12 : IVec S_ 1 := (fun x v => Host.reduce IntOp.andi x v reducesTo_S8192x16x512_S_d0_1_2 h_S_) main_v11 main_c_3
  let main_v13 : IVec S_ 1 := andi main_v8 main_v12
  main_v13
-- ==== Kernel.lean ====
abbrev S8192x512 : Shape := ⟨2, ![8192, 512]⟩
abbrev S8192x16x512 : Shape := ⟨3, ![8192, 16, 512]⟩
abbrev S16x128 : Shape := ⟨2, ![16, 128]⟩
abbrev S256x512 : Shape := ⟨2, ![256, 512]⟩
abbrev S256x16x512 : Shape := ⟨3, ![256, 16, 512]⟩
abbrev S8x128 : Shape := ⟨2, ![8, 128]⟩
abbrev S256 : Shape := ⟨1, ![256]⟩
abbrev S256x1 : Shape := ⟨2, ![256, 1]⟩
abbrev S256x1x512 : Shape := ⟨3, ![256, 1, 512]⟩
abbrev S256x16 : Shape := ⟨2, ![256, 16]⟩
abbrev S1 : Shape := ⟨1, ![1]⟩
abbrev S1x1 : Shape := ⟨2, ![1, 1]⟩
abbrev S_ : Shape := ⟨0, ![]⟩

abbrev nBuf : Space → Nat
  | .hbm => 8
  | .vmem => 8
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x16x512, .f32⟩
  | .hbm, ⟨3, _⟩ => ⟨S16x128, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x16x512, .f32⟩
  | .local _ .vmem, ⟨5, _⟩ => ⟨S256x16x512, .f32⟩
  | .local _ .vmem, ⟨6, _⟩ => ⟨S8x128, .f32⟩
  | .local _ .vmem, ⟨7, _⟩ => ⟨S8x128, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x16x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  inb_S8x128_S8x128_0_0 : ∀ a, (![0, 0] : Fin 2 → Nat) a + S8x128.size a ≤ S8x128.size a
  h_S8x128 : 0 < S8x128.numel
  inb_S256x512_S256x512_0_0 : ∀ a, (![0, 0] : Fin 2 → Nat) a + S256x512.size a ≤ S256x512.size a
  h_S256x512 : 0 < S256x512.numel
  inb_S256x16x512_S256x16x512_0_0_0 : ∀ a, (![0, 0, 0] : Fin 3 → Nat) a + S256x16x512.size a ≤ S256x16x512.size a
  h_S256x16x512 : 0 < S256x16x512.numel
  reduces_S256x512_S256 : S256x512.Reduces [1] S256
  shapeCasts_S256_S256x1 : S256.ShapeCasts S256x1
  shapeCasts_S256x512_S256x1x512 : S256x512.ShapeCasts S256x1x512
  broadcasts_S256x1x512_S256x16x512 : S256x1x512.Broadcasts S256x16x512
  reduces_S256x16x512_S256x16 : S256x16x512.Reduces [2] S256x16
  reduces_S256x16_S256 : S256x16.Reduces [1] S256
  reduces_S256x1_S1 : S256x1.Reduces [0] S1
  shapeCasts_S1_S1x1 : S1.ShapeCasts S1x1
  shapeCasts_S8x128_S8x128 : S8x128.ShapeCasts S8x128
  shapeCasts_S1x1_S1x1 : S1x1.ShapeCasts S1x1
  broadcasts_S1x1_S8x128 : S1x1.Broadcasts S8x128
  reducesTo_S16x128_S_d0_1 : S16x128.ReducesTo [0, 1] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x512.size a ≤ S8192x512.size a
  hwx0_0 : ∀ i : grid0.Coords, EltTy.bits .f32 = 32 ∨ (Rect.block (s := S8192x512) S256x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x512.size a ≤ S8192x512.size a
  hwx0_1 : ∀ i : grid0.Coords, EltTy.bits .f32 = 32 ∨ (Rect.block (s := S8192x512) S256x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x16x512.size a ≤ S8192x16x512.size a
  hwx0_2 : ∀ i : grid0.Coords, EltTy.bits .f32 = 32 ∨ (Rect.block (s := S8192x16x512) S256x16x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x128.size a ≤ S16x128.size a
  hwx0_3 : ∀ i : grid0.Coords, EltTy.bits .f32 = 32 ∨ (Rect.block (s := S16x128) S8x128.size (cc0_transform_3 i) (hinb0_3 i)).WholeWords (EltTy.packing .f32)

variable [Facts₀]

abbrev win0_0 : Pipeline.Window sig grid0 :=
  Pipeline.Window.ofSpec (Memref.whole main_arg0) S256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x16x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S8x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x512 : Shape := ⟨2, ![8192, 512]⟩
abbrev S8192x16x512 : Shape := ⟨3, ![8192, 16, 512]⟩
abbrev S_ : Shape := ⟨0, ![]⟩
abbrev S8192 : Shape := ⟨1, ![8192]⟩
abbrev S8192x1x512 : Shape := ⟨3, ![8192, 1, 512]⟩
abbrev S8192x16 : Shape := ⟨2, ![8192, 16]⟩

abbrev nBuf : Space → Nat
  | .hbm => 35
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x16x512, .f32⟩
  | .hbm, ⟨3, _⟩ => ⟨S8192x512, .f32⟩
  | .hbm, ⟨4, _⟩ => ⟨S8192x512, .f32⟩
  | .hbm, ⟨5, _⟩ => ⟨S_, .f32⟩
  | .hbm, ⟨6, _⟩ => ⟨S8192, .f32⟩
  | .hbm, ⟨7, _⟩ => ⟨S_, .f32⟩
  | .hbm, ⟨8, _⟩ => ⟨S8192, .f32⟩
  | .hbm, ⟨9, _⟩ => ⟨S8192, .f32⟩
  | .hbm, ⟨10, _⟩ => ⟨S8192, .f32⟩
  | .hbm, ⟨11, _⟩ => ⟨S8192x1x512, .f32⟩
  | .hbm, ⟨12, _⟩ => ⟨S8192x16x512, .f32⟩
  | .hbm, ⟨13, _⟩ => ⟨S8192x16x512, .f32⟩
  | .hbm, ⟨14, _⟩ => ⟨S8192x16x512, .f32⟩
  | .hbm, ⟨15, _⟩ => ⟨S_, .f32⟩
  | .hbm, ⟨16, _⟩ => ⟨S8192x16, .f32⟩
  | .hbm, ⟨17, _⟩ => ⟨S_, .f32⟩
  | .hbm, ⟨18, _⟩ => ⟨S8192x16, .f32⟩
  | .hbm, ⟨19, _⟩ => ⟨S8192x16, .f32⟩
  | .hbm, ⟨20, _⟩ => ⟨S8192x16, .f32⟩
  | .hbm, ⟨21, _⟩ => ⟨S_, .f32⟩
  | .hbm, ⟨22, _⟩ => ⟨S8192, .f32⟩
  | .hbm, ⟨23, _⟩ => ⟨S8192, .f32⟩
  | .hbm, ⟨24, _⟩ => ⟨S_, .f32⟩
  | .hbm, ⟨25, _⟩ => ⟨S8192, .f32⟩
  | .hbm, ⟨26, _⟩ => ⟨S8192, .f32⟩
  | .hbm, ⟨27, _⟩ => ⟨S_, .f32⟩
  | .hbm, ⟨28, _⟩ => ⟨S8192, .f32⟩
  | .hbm, ⟨29, _⟩ => ⟨S8192, .f32⟩
  | .hbm, ⟨30, _⟩ => ⟨S_, .f32⟩
  | .hbm, ⟨31, _⟩ => ⟨S8192, .f32⟩
  | .hbm, ⟨32, _⟩ => ⟨S8192, .f32⟩
  | .hbm, ⟨33, _⟩ => ⟨S_, .f32⟩
  | .hbm, ⟨34, _⟩ => ⟨S_, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_3 : Ref sig .tc := ⟨.hbm, 21, rfl⟩
abbrev main_v14 : Ref sig .tc := ⟨.hbm, 22, rfl⟩
abbrev main_v15 : Ref sig .tc := ⟨.hbm, 23, rfl⟩
abbrev main_cst_4 : Ref sig .tc := ⟨.hbm, 24, rfl⟩
abbrev main_v16 : Ref sig .tc := ⟨.hbm, 25, rfl⟩
abbrev main_v17 : Ref sig .tc := ⟨.hbm, 26, rfl⟩
abbrev main_cst_5 : Ref sig .tc := ⟨.hbm, 27, rfl⟩
abbrev main_v18 : Ref sig .tc := ⟨.hbm, 28, rfl⟩
abbrev main_v19 : Ref sig .tc := ⟨.hbm, 29, rfl⟩
abbrev main_call0_cst : Ref sig .tc := ⟨.hbm, 30, rfl⟩
abbrev main_call0_v0 : Ref sig .tc := ⟨.hbm, 31, rfl⟩
abbrev main_v20 : Ref sig .tc := ⟨.hbm, 32, rfl⟩
abbrev main_cst_6 : Ref sig .tc := ⟨.hbm, 33, rfl⟩
abbrev main_v21 : Ref sig .tc := ⟨.hbm, 34, rfl⟩

abbrev nD : Nat := 1
abbrev τ : Topo := Topo.v7x

variable {F : FTy → Type} [FloatOps F]

class Facts₀ : Prop where
  reducesTo_S8192x512_S8192_d1 : S8192x512.ReducesTo [1] S8192
  h_S_ : 0 < S_.numel
  bcast_S_S8192 : S_.BroadcastsInDim S8192 (![] : Fin 0 → Fin S8192.rank)
  bcast_S8192x512_S8192x1x512_0_2 : S8192x512.BroadcastsInDim S8192x1x512 (![0, 2] : Fin 2 → Fin S8192x1x512.rank)
  bcast_S8192x1x512_S8192x16x512_0_1_2 : S8192x1x512.BroadcastsInDim S8192x16x512 (![0, 1, 2] : Fin 3 → Fin S8192x16x512.rank)
  reducesTo_S8192x16x512_S8192x16_d2 : S8192x16x512.ReducesTo [2] S8192x16
  bcast_S_S8192x16 : S_.BroadcastsInDim S8192x16 (![] : Fin 0 → Fin S8192x16.rank)
  reducesTo_S8192x16_S8192_d1 : S8192x16.ReducesTo [1] S8192
  reducesTo_S8192_S_d0 : S8192.ReducesTo [0] S_

variable [Facts₀]

class Facts : Prop extends Facts₀ where

variable [Facts]
-- ==== Proof.TripletPieces.lean ====
/-
  What each of the body's two cases leaves in the tile it keeps between grid points.

  At a group's first point the body first stores the zero tile, then reads the tile back and stores the stored value
  (old tile plus the block's number): the tile ends as that value computed over the zero tile.  At every other point
  there is only the second store, over whatever the tile held.  Both stores cover the whole 8 × 128 tile, and every
  load reads a whole buffer, so the tile's contents are the stored value itself, as one term.
-/
import proofs.«121182_j16862041604543_2_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A later point of a group: the tile holding xo ends as the stored value over xo. -/
theorem out_B (c : Dev nD) (i : grid0.Coords) (a2 : Memref sig .tc .vmem S256x512 .f32) (h2 : a2.IsWhole)
    (a3 : Memref sig .tc .vmem S256x512 .f32) (h3 : a3.IsWhole) (a4 : Memref sig .tc .vmem S256x16x512 .f32) (h4 : a4.IsWhole)
    (a5 : Memref sig .tc .vmem S8x128 .f32) (h5 : a5.IsWhole) (hc : ¬cond0_0 i)
    (x0 x1 : Vec F S256x512 .f32) (x2 : Vec F S256x16x512 .f32) (xo : Vec F S8x128 .f32) :
    out0_B_3 c i a2 h2 a3 h3 a4 h4 a5 h5 hc x0 x1 x2 xo = k0_pay2 x0 x1 x2 xo := by
  unfold out0_B_3
  rw [View.read_writes_eq_canon _ _ _ (cover0_B_3 c i a2 h2 a3 h3 a4 h4 a5 h5 hc x0 x1 x2 xo)]
  unfold kernelRun0_B
  dsimp only
  sl_unfold_words
  rw [View.canon_unit_zero hz2]
  simp only [View.readAt_eq_ld, h2.read_unread, h3.read_unread, h4.read_unread, h5.read_unread,
    View.ld_unit_zero (S := S256x512) hz2, View.ld_unit_zero (S := S256x16x512) hz3, View.ld_unit_zero (S := S8x128) hz2]

/-- A group's first point: the tile ends as the stored value over the zero tile the point stored first. -/
theorem out_A (c : Dev nD) (i : grid0.Coords) (a2 : Memref sig .tc .vmem S256x512 .f32) (h2 : a2.IsWhole)
    (a3 : Memref sig .tc .vmem S256x512 .f32) (h3 : a3.IsWhole) (a4 : Memref sig .tc .vmem S256x16x512 .f32) (h4 : a4.IsWhole)
    (a5 : Memref sig .tc .vmem S8x128 .f32) (h5 : a5.IsWhole) (hc : cond0_0 i)
    (x0 x1 : Vec F S256x512 .f32) (x2 : Vec F S256x16x512 .f32) :
    out0_A_3 c i a2 h2 a3 h3 a4 h4 a5 h5 hc x0 x1 x2 = k0_pay2 x0 x1 x2 (k0_pay1 (F := F)) := by
  unfold out0_A_3
  rw [View.read_writes_eq_canon _ _ _ (cover0_A_3 c i a2 h2 a3 h3 a4 h4 a5 h5 hc x0 x1 x2)]
  unfold kernelRun0_A
  dsimp only
  sl_unfold_words
  rw [View.canon_cons_unit_zero (S := S8x128) hz2, View.readCov_unit_zero (S := S8x128) _ hz2]
  simp only [View.readAt_eq_ld, h2.read_unread, h3.read_unread, h4.read_unread,
    View.ld_unit_zero (S := S256x512) hz2, View.ld_unit_zero (S := S256x16x512) hz3, View.ld_unit_zero (S := S8x128) hz2]

end Cert.KernelIdeal.Pieces

end
-- ==== Proof.LibColumnCasts.lean ====
/-
  Shape casts between a vector and the column that holds it, read at an index given by coordinates.

  A vector of `a` entries and an `a` by 1 column list the same entries in the same row-major order, so a cast either
  way reads entry `i` of the one at row `i` of the other; likewise a scalar and a 1 by 1 array hold one entry.  These
  are the "keepdims" forms a row sum meets when its result is kept as a column: the vector-to-column cast after the
  sum, the column-to-vector cast when the column is handed back as a vector, and the scalar-to-array cast of a total.
  Also here: the sum over a vector's indices as the sum over its coordinates, and a lane sum over the second axis of a
  matrix at the ideal values, as the plain sum over the columns of one row.
-/
import Idealize.ShloMosaic.Lib.Pipeline.Value
import Idealize.ShloMosaic.Lib.ValueIdx
import Idealize.ShloMosaic.PureOps.Ideal.Laws

namespace Cert.ColumnCasts

open Idealize.ShloMosaic Idealize.ShloMosaic.ValueIdx
open scoped BigOperators

variable {α : Type}

/-- An `[a]` vector cast to an `[a, 1]` column reads, at `(i, u)`, the vector at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column cast to an `[a]` vector reads, at `i`, the column at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A scalar (rank 0) cast to a `[1, 1]` array reads, at its one index, the scalar: a rank-0 shape has one index. -/
theorem shapeCast_scalar_11_apply (x : (⟨0, ![]⟩ : Shape).Idx → α) (h : (⟨0, ![]⟩ : Shape).ShapeCasts ⟨2, ![1, 1]⟩)
    (j : (⟨2, ![1, 1]⟩ : Shape).Idx) : shapeCast ⟨2, ![1, 1]⟩ x h j = x ix0 :=
  congrArg x (funext fun d => d.elim0)

/-- The indices of a vector of `n` entries are its coordinates. -/
def vectorIdxEquiv {n : ℕ} : (⟨1, ![n]⟩ : Shape).Idx ≃ Fin n where
  toFun i := i 0
  invFun := ix1
  left_inv i := (eq_ix1 i).symm
  right_inv _ := rfl

/-- A sum over the indices of a vector is the sum over its coordinates. -/
theorem sum_vectorIdx {M : Type} [AddCommMonoid M] {n : ℕ} (f : (⟨1, ![n]⟩ : Shape).Idx → M) :
    ∑ i, f i = ∑ o : Fin n, f (ix1 o) :=
  (Equiv.sum_comp (vectorIdxEquiv (n := n)).symm f).symm

/-- At the ideal values the lane sum of an `[a, b]` matrix over its second axis is, at row `p`, the sum over the
    columns `k` of the entry `(p, k)`.  The accumulator is the zero word, which is the neutral element of the sum. -/
theorem rowSum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = 0x00000000#32) (p : Fin a) :
    multiReduction .add [1] ⟨1, ![a]⟩ src 0x00000000#32 h hφ hacc (ix1 p) = ∑ k : Fin b, src (ix2 p k) :=
  (Ideal.multiReduction_add_single src 0x00000000#32 h hφ hacc (ix1 p)).trans
    (Finset.sum_congr rfl fun k _ => congrArg src (funext fun d => Fin.ext (by
      match d with
      | ⟨0, _⟩ => rfl
      | ⟨1, _⟩ => rfl)))

end Cert.ColumnCasts
-- ==== Proof.LibRank3Layout.lean ====
/-
  Layout steps on arrays of rank 3, read at an index given by coordinates, and the two sums along one axis of such an
  array at the ideal values.

  A squeeze-and-excite style body works on a stack of `a` matrices at once: it appends or inserts a unit axis by a
  shape cast ([a, b] → [a, b, 1], [a, b] → [a, 1, b]), stretches a unit axis by a broadcast ([1, b, c], [a, b, 1] and
  [a, 1, c] → [a, b, c]), and sums the stack along its last or its middle axis.  Each lemma says which entry of the
  operand the result holds at `(i, j, k)`; the casts keep the row-major position, the broadcasts read coordinate 0 on
  the stretched axis.  The column sum of a single matrix (along axis 0) is here too.
-/
import Idealize.ShloMosaic.Lib.Pipeline.Value
import Idealize.ShloMosaic.Lib.ValueIdx
import Idealize.ShloMosaic.PureOps.Ideal.Laws

namespace Cert.Rank3Layout

open Idealize.ShloMosaic Idealize.ShloMosaic.ValueIdx
open scoped BigOperators

variable {α : Type}

/-- An `[a, b]` matrix cast to `[a, b, 1]` reads, at `(i, j, u)`, the matrix at `(i, j)`, whatever the unit coordinate. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b]` matrix cast to `[a, 1, b]` reads, at `(i, u, j)`, the matrix at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- One `[1, b, c]` matrix broadcast to a stack `[a, b, c]` reads, at `(i, j, k)`, the matrix at `(0, j, k)`. -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ v h (ix3 i j k) = v (ix3 (0 : Fin 1) j k) := by
  refine broadcastTo_apply v h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

/-- A stack of columns `[a, b, 1]` broadcast to `[a, b, c]` reads, at `(i, j, k)`, the column entry `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ =>
    show (0 : ℕ) = if (1 : ℕ) = 1 then 0 else k.val
    rw [if_pos rfl]

/-- A stack of rows `[a, 1, c]` broadcast to `[a, b, c]` reads, at `(i, j, k)`, the row entry `(i, 0, k)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ =>
    show (0 : ℕ) = if (1 : ℕ) = 1 then 0 else j.val
    rw [if_pos rfl]
  | ⟨2, _⟩ =>
    show k.val = if c = 1 then 0 else k.val
    split
    · have := k.isLt; omega
    · rfl

/-- At the ideal values the sum of an `[a, b, c]` stack along its LAST axis is, at `(i, j)`, the sum over `k` of the
    entries `(i, j, k)`.  The accumulator is the zero word, the neutral element of the sum. -/
theorem sumLast_apply {a b c : ℕ} (src : FVec Ideal ⟨3, ![a, b, c]⟩ .f32)
    (h : (⟨3, ![a, b, c]⟩ : Shape).Reduces [2] ⟨2, ![a, b]⟩)
    (hφ : FKind.Formats .f32) (hacc : (0x00000000#32 : BitVec 32) = 0x00000000#32) (i : Fin a) (j : Fin b) :
    multiReduction .add [2] ⟨2, ![a, b]⟩ src 0x00000000#32 h hφ hacc (ix2 i j) = ∑ k : Fin c, src (ix3 i j k) :=
  (Ideal.multiReduction_add_single src 0x00000000#32 h hφ hacc (ix2 i j)).trans
    (Finset.sum_congr rfl fun k _ => congrArg src (funext fun d => Fin.ext (by
      match d with
      | ⟨0, _⟩ => rfl
      | ⟨1, _⟩ => rfl
      | ⟨2, _⟩ => rfl)))

/-- At the ideal values the sum of an `[a, b, c]` stack along its MIDDLE axis is, at `(i, k)`, the sum over `j` of the
    entries `(i, j, k)`. -/
theorem sumMiddle_apply {a b c : ℕ} (src : FVec Ideal ⟨3, ![a, b, c]⟩ .f32)
    (h : (⟨3, ![a, b, c]⟩ : Shape).Reduces [1] ⟨2, ![a, c]⟩)
    (hφ : FKind.Formats .f32) (hacc : (0x00000000#32 : BitVec 32) = 0x00000000#32) (i : Fin a) (k : Fin c) :
    multiReduction .add [1] ⟨2, ![a, c]⟩ src 0x00000000#32 h hφ hacc (ix2 i k) = ∑ j : Fin b, src (ix3 i j k) :=
  (Ideal.multiReduction_add_single src 0x00000000#32 h hφ hacc (ix2 i k)).trans
    (Finset.sum_congr rfl fun j _ => congrArg src (funext fun d => Fin.ext (by
      match d with
      | ⟨0, _⟩ => rfl
      | ⟨1, _⟩ => rfl
      | ⟨2, _⟩ => rfl)))

/-- At the ideal values the sum of an `[a, b]` matrix along its FIRST axis is, at column `q`, the sum over the rows
    `p` of the entries `(p, q)`. -/
theorem colSum_apply {a b : ℕ} (src : FVec Ideal ⟨2, ![a, b]⟩ .f32) (h : (⟨2, ![a, b]⟩ : Shape).Reduces [0] ⟨1, ![b]⟩)
    (hφ : FKind.Formats .f32) (hacc : (0x00000000#32 : BitVec 32) = 0x00000000#32) (q : Fin b) :
    multiReduction .add [0] ⟨1, ![b]⟩ src 0x00000000#32 h hφ hacc (ix1 q) = ∑ p : Fin a, src (ix2 p q) :=
  (Ideal.multiReduction_add_single src 0x00000000#32 h hφ hacc (ix1 q)).trans
    (Finset.sum_congr rfl fun p _ => congrArg src (funext fun d => Fin.ext (by
      match d with
      | ⟨0, _⟩ => rfl
      | ⟨1, _⟩ => rfl)))

end Cert.Rank3Layout
-- ==== Proof.LibScalarTile.lean ====
/-
  A one-entry array spread over a tile, read at an index.

  A kernel that has reduced a block to a single number keeps it as a 1 × 1 array and then broadcasts it to the
  shape of its output tile, so that every entry of the tile carries the number.  The lemmas say which entry of the
  1 × 1 array the tile holds at (i, j) (the only one), and follow the number back through the steps that usually
  precede the broadcast: the column sum of an a × 1 column kept as a vector of one entry, and that vector cast to
  1 × 1.
-/
import Idealize.ShloMosaic.Lib.Pipeline.Value
import Idealize.ShloMosaic.Lib.ValueIdx
import Idealize.ShloMosaic.PureOps.Ideal.Laws

namespace Cert.ScalarTile

open Idealize.ShloMosaic Idealize.ShloMosaic.ValueIdx
open scoped BigOperators

variable {α : Type}

/-- A 1 × 1 array broadcast to a × b reads, at every (i, j), its one entry (0, 0). -/
theorem broadcastTo_11_ab_apply {a b : ℕ} (v : (⟨2, ![1, 1]⟩ : Shape).Idx → α)
    (h : (⟨2, ![1, 1]⟩ : Shape).Broadcasts ⟨2, ![a, b]⟩) (i : Fin a) (j : Fin b) :
    broadcastTo ⟨2, ![a, b]⟩ v h (ix2 i j) = v (ix2 (0 : Fin 1) (0 : Fin 1)) := by
  refine broadcastTo_apply v h (ix2 i j) (ix2 (0 : Fin 1) (0 : Fin 1)) fun ax => ?_
  match ax with
  | ⟨0, _⟩ =>
    show (0 : ℕ) = if (1 : ℕ) = 1 then 0 else i.val
    rw [if_pos rfl]
  | ⟨1, _⟩ =>
    show (0 : ℕ) = if (1 : ℕ) = 1 then 0 else j.val
    rw [if_pos rfl]

/-- A vector of one entry cast to a 1 × 1 array reads, at (0, 0), that entry. -/
theorem shapeCast_1_11_apply (x : (⟨1, ![1]⟩ : Shape).Idx → α) (h : (⟨1, ![1]⟩ : Shape).ShapeCasts ⟨2, ![1, 1]⟩) :
    shapeCast ⟨2, ![1, 1]⟩ x h (ix2 (0 : Fin 1) (0 : Fin 1)) = x (ix1 (0 : Fin 1)) :=
  shapeCast_apply x h _ _ (by
    rw [Shape.rowMajor_val_two, Shape.rowMajor_val_one]
    rfl)

/-- At the ideal values the sum of an a × 1 column along its first axis is, at its one entry, the sum over the rows
    p of the entries (p, 0).  The accumulator is the zero word, the neutral element of the sum. -/
theorem columnTotal_apply {a : ℕ} (src : FVec Ideal ⟨2, ![a, 1]⟩ .f32) (h : (⟨2, ![a, 1]⟩ : Shape).Reduces [0] ⟨1, ![1]⟩)
    (hφ : FKind.Formats .f32) (hacc : (0x00000000#32 : BitVec 32) = 0x00000000#32) :
    multiReduction .add [0] ⟨1, ![1]⟩ src 0x00000000#32 h hφ hacc (ix1 (0 : Fin 1)) = ∑ p : Fin a, src (ix2 p (0 : Fin 1)) :=
  (Ideal.multiReduction_add_single src 0x00000000#32 h hφ hacc (ix1 (0 : Fin 1))).trans
    (Finset.sum_congr rfl fun p _ => congrArg src (funext fun d => Fin.ext (by
      match d with
      | ⟨0, _⟩ => rfl
      | ⟨1, _⟩ => rfl)))

end Cert.ScalarTile
-- ==== Proof.LibWords.lean ====
/-
  Small facts about 32-bit words that count rows and columns: a word built from a natural number below 2^32 determines it, so an
  integer comparison of two such words is the comparison of the numbers; and block-row arithmetic t · s + q on words is the
  word of the number t · s + q.
-/
import Idealize.ShloMosaic.PureOps.Float
import Mathlib.Data.Fintype.BigOperators
import Mathlib.Algebra.BigOperators.Fin
import Mathlib.Logic.Equiv.Fin.Basic

namespace Cert.Lib

open Idealize.ShloMosaic

/-- A word of a number below 2^32 determines the number. -/
theorem ofNat32_inj {a b : ℕ} (ha : a < 2 ^ 32) (hb : b < 2 ^ 32) : BitVec.ofNat 32 a = BitVec.ofNat 32 b ↔ a = b := by
  constructor
  · intro e
    have h := congrArg BitVec.toNat e
    rw [BitVec.toNat_ofNat, BitVec.toNat_ofNat, Nat.mod_eq_of_lt ha, Nat.mod_eq_of_lt hb] at h
    exact h
  · intro e; rw [e]

/-- Block-row arithmetic on words: (t · s) + q. -/
theorem ofNat32_mul_add (t s q : ℕ) : BitVec.ofNat 32 t * BitVec.ofNat 32 s + BitVec.ofNat 32 q = BitVec.ofNat 32 (t * s + q) := by
  rw [BitVec.ofNat_add, BitVec.ofNat_mul]

/-- "Not equal" on two such words is "not equal" on the numbers. -/
theorem cmpi_ne_ofNat32 {a b : ℕ} (ha : a < 2 ^ 32) (hb : b < 2 ^ 32) :
    IntOp.cmpi .ne (BitVec.ofNat 32 a) (BitVec.ofNat 32 b) = if a ≠ b then 1#1 else 0#1 := by
  unfold IntOp.cmpi
  by_cases h : a = b
  · subst h; simp
  · have h' : BitVec.ofNat 32 a ≠ BitVec.ofNat 32 b := fun e => h ((ofNat32_inj ha hb).mp e)
    rw [if_pos h]
    show BitVec.ofBool (BitVec.ofNat 32 a != BitVec.ofNat 32 b) = 1#1
    rw [show (BitVec.ofNat 32 a != BitVec.ofNat 32 b) = true from bne_iff_ne.mpr h']
    rfl

/-- "Equal" on two such words is "equal" on the numbers. -/
theorem cmpi_eq_ofNat32 {a b : ℕ} (ha : a < 2 ^ 32) (hb : b < 2 ^ 32) :
    IntOp.cmpi .eq (BitVec.ofNat 32 a) (BitVec.ofNat 32 b) = if a = b then 1#1 else 0#1 := by
  unfold IntOp.cmpi
  by_cases h : a = b
  · subst h; simp
  · have h' : BitVec.ofNat 32 a ≠ BitVec.ofNat 32 b := fun e => h ((ofNat32_inj ha hb).mp e)
    rw [if_neg h]
    show BitVec.ofBool (BitVec.ofNat 32 a == BitVec.ofNat 32 b) = 0#1
    rw [show (BitVec.ofNat 32 a == BitVec.ofNat 32 b) = false from beq_eq_false_iff_ne.mpr h']
    rfl

/-- A sum over a · b consecutive positions is the sum over a blocks of b positions. -/
theorem sum_fin_blocks {M : Type*} [AddCommMonoid M] (a b : ℕ) (f : Fin (a * b) → M) :
    ∑ i, f i = ∑ r : Fin a, ∑ q : Fin b, f (finProdFinEquiv (r, q)) :=
  (Fintype.sum_equiv finProdFinEquiv (fun p => f (finProdFinEquiv p)) f (fun _ => rfl)).symm.trans (Fintype.sum_prod_type _)

/-- The position of entry q of block r. -/
theorem finProdFinEquiv_val (a b : ℕ) (r : Fin a) (q : Fin b) : (finProdFinEquiv (r, q) : Fin (a * b)).val = q.val + b * r.val := rfl

end Cert.Lib
-- ==== Proof.TripletSpec.lean ====
/-
  The triplet margin loss as one function of the three argument arrays, and the law that joins the two ways of
  adding it up.

  For a row with anchor a, positive p and sixteen negatives q n (vectors of 512 entries):
    dist u v = sqrt (Σ_d (u d - v d)² + ε),
    hinge    = max (16 · dist a p - Σ_n dist a (q n) + 1) 0,
  and the loss is the sum of the 8192 rows' hinges.  Every hinge is ≥ 0, which is all the law below needs.

  One way adds the rows up directly.  The other cuts them into 32 blocks of 256 rows, adds each block, adds the
  blocks in two groups of sixteen (block t is in group t / 16), writes each group's total into every entry of an
  8 × 128 tile, adds up all 2 · 1024 entries, and multiplies by 2⁻¹⁰.  Since the group totals are nonnegative
  extended reals, 1024 copies of a total add up to 1024 times it, the factor distributes over the two groups, and
  1024 · 2⁻¹⁰ = 1: the two ways agree, with no finiteness assumed.
-/
import Idealize.ShloMosaic.PureOps.Ideal
import Idealize.ShloMosaic.PureOps.Ideal.Laws
import Idealize.ShloMosaic.Lib.ValueIdx
import proofs.«121182_j16862041604543_2_alg».proof.Proof.LibWords

noncomputable section

namespace Triplet

open Idealize.ShloMosaic
open scoped BigOperators

/-- The distance of two vectors of 512 entries, with the ε the programs add under the root (its word, unevaluated). -/
def dist (u v : Fin 512 → EReal) : EReal :=
  Ideal.sqrt ((∑ d : Fin 512, (u d - v d) * (u d - v d)) + Ideal.ofBits .f32 0x2B8CBCCC#32)

/-- A row's hinge: sixteen times the distance to the positive, less the distances to the sixteen negatives, plus the
    margin 1, cut off below at 0. -/
def hinge (a p : Fin 512 → EReal) (q : Fin 16 → Fin 512 → EReal) : EReal :=
  max (Ideal.ofBits .f32 0x41800000#32 * dist a p - (∑ n : Fin 16, dist a (q n)) + Ideal.ofBits .f32 0x3F800000#32) 0

theorem hinge_nonneg (a p : Fin 512 → EReal) (q : Fin 16 → Fin 512 → EReal) : 0 ≤ hinge a p q := le_max_right _ _

/-- The word 0x3A800000 is 2⁻¹⁰ = 1/1024. -/
theorem scale_eq : Ideal.ofBits .f32 0x3A800000#32 = ((1 / 1024 : ℝ) : EReal) := by
  simp [Ideal.ofBits, Ideal.ieee, -EReal.coe_mul]; norm_num

/-! ## Sums within a group of sixteen consecutive points -/

/-- The sum of L over the points of n's group of sixteen, from the group's first point up to n. -/
def groupSum (L : ℕ → EReal) (n : ℕ) : EReal := ∑ k ∈ Finset.range (n % 16 + 1), L (n - n % 16 + k)

/-- At a group's first point it is zero plus that point's term. -/
theorem groupSum_first (L : ℕ → EReal) (n : ℕ) (h : n % 16 = 0) : groupSum L n = 0 + L n := by
  unfold groupSum
  rw [h, Finset.sum_range_one, zero_add]
  rfl

/-- At any later point of the group it is the sum up to the point before, plus this point's term. -/
theorem groupSum_next (L : ℕ → EReal) (n : ℕ) (h : ¬n % 16 = 0) : groupSum L n = groupSum L (n - 1) + L n := by
  unfold groupSum
  have h1 : (n - 1) % 16 + 1 = n % 16 := by omega
  have h2 : n - 1 - (n - 1) % 16 = n - n % 16 := by omega
  have h3 : n - n % 16 + n % 16 = n := by omega
  rw [Finset.sum_range_succ, h1, h2, h3]

/-- At a group's last point it is the whole group's sum. -/
theorem groupSum_last (L : ℕ → EReal) (c : ℕ) : groupSum L (16 * c + 15) = ∑ k : Fin 16, L (16 * c + k.val) := by
  unfold groupSum
  have e1 : (16 * c + 15) % 16 + 1 = 16 := by omega
  have e2 : 16 * c + 15 - (16 * c + 15) % 16 = 16 * c := by omega
  rw [e1, e2, Finset.sum_range]

/-! ## The law -/

/-- 1024 copies of a nonnegative extended real, times 2⁻¹⁰, is that extended real. -/
theorem copies_scale (X : EReal) : ((1024 : ℕ) • X) * ((1 / 1024 : ℝ) : EReal) = X := by
  rw [EReal.nsmul_eq_mul, mul_comm ((1024 : ℕ) : EReal) X, mul_assoc]
  have e : ((1024 : ℕ) : EReal) * ((1 / 1024 : ℝ) : EReal) = 1 := by
    rw [show ((1024 : ℕ) : EReal) = ((1024 : ℝ) : EReal) by norm_cast, ← EReal.coe_mul]
    norm_num
  rw [e, mul_one]

/-- THE LAW.  H gives each row its nonnegative term.  Adding the rows block by block (256 rows to a block), the blocks
    group by group (sixteen blocks to a group), each group's total copied into the 8 · 128 entries of its tile
    (row p of the 16 × 128 array is in tile p / 8), all 2048 entries added from zero and the sum multiplied by the
    word for 2⁻¹⁰, gives zero plus the plain sum of the rows. -/
theorem total_eq (H : ℕ → EReal) (hH : ∀ n, 0 ≤ H n) :
    (0 + ∑ p : Fin 16, ∑ _q : Fin 128,
        groupSum (fun t => ∑ r : Fin 256, H (256 * t + r.val)) (16 * (p.val / 8) + 15))
      * Ideal.ofBits .f32 0x3A800000#32 = 0 + ∑ b : Fin 8192, H b.val := by
  have hLnn : ∀ t, 0 ≤ ∑ r : Fin 256, H (256 * t + r.val) := fun t => Finset.sum_nonneg fun r _ => hH _
  simp only [groupSum_last]
  -- the total of group c
  have hSnn : ∀ c : ℕ, 0 ≤ ∑ k : Fin 16, ∑ r : Fin 256, H (256 * (16 * c + k.val) + r.val) :=
    fun c => Finset.sum_nonneg fun k _ => hLnn _
  -- the 16 × 128 entries: two tiles of 1024 copies each
  have h1 : ∀ S : ℕ → EReal, ∑ p : Fin 16, ∑ _q : Fin 128, S (p.val / 8) = (1024 : ℕ) • (S 0 + S 1) := by
    intro S
    simp only [Finset.sum_const, Finset.card_univ, Fintype.card_fin]
    have e := Cert.Lib.sum_fin_blocks 2 8 (fun p : Fin (2 * 8) => (128 : ℕ) • S (p.val / 8))
    have e' : ∀ (c : Fin 2) (r : Fin 8), ((finProdFinEquiv (c, r) : Fin (2 * 8)).val) / 8 = c.val := by
      intro c r
      rw [Cert.Lib.finProdFinEquiv_val]
      have := r.isLt
      omega
    simp only [e'] at e
    refine e.trans ?_
    simp only [Finset.sum_const, Finset.card_univ, Fintype.card_fin, Fin.sum_univ_two, Fin.val_zero, Fin.val_one]
    rw [← mul_nsmul, ← mul_nsmul, ← nsmul_add]
  rw [h1 (fun c => ∑ k : Fin 16, ∑ r : Fin 256, H (256 * (16 * c + k.val) + r.val))]
  rw [zero_add, zero_add, scale_eq, copies_scale]
  -- the rows, block by block and group by group
  have e2 := Cert.Lib.sum_fin_blocks 32 256 (fun b : Fin (32 * 256) => H b.val)
  have e3 := Cert.Lib.sum_fin_blocks 2 16 (fun t : Fin (2 * 16) => ∑ r : Fin 256, H (256 * t.val + r.val))
  simp only [Cert.Lib.finProdFinEquiv_val] at e2 e3
  refine Eq.symm (e2.trans ?_)
  have e4 : (∑ t : Fin 32, ∑ r : Fin 256, H (r.val + 256 * t.val))
      = ∑ t : Fin (2 * 16), ∑ r : Fin 256, H (256 * t.val + r.val) :=
    Finset.sum_congr rfl fun t _ => Finset.sum_congr rfl fun r _ => by rw [Nat.add_comm]
  refine e4.trans (e3.trans ?_)
  rw [Fin.sum_univ_two]
  simp only [Fin.val_zero, Fin.val_one, Nat.mul_zero, Nat.mul_one, Nat.add_zero, Nat.zero_add]
  refine congrArg₂ (· + ·) (Finset.sum_congr rfl fun k _ => ?_) (Finset.sum_congr rfl fun k _ => ?_)
  · rfl
  · rw [Nat.add_comm]

end Triplet

end
-- ==== Proof.TripletBody.lean ====
/-
  What one grid point adds to its tile.

  The body holds a block of 256 rows: anchors x0 and positives x1 (256 × 512) and negatives x2 (256 × 16 × 512).
  It forms each row's hinge and adds the 256 hinges into ONE number, which it adds to every entry of the 8 × 128
  tile it keeps between grid points.  So, read at an entry (i, j), the value the body stores is the tile's old entry
  plus the block's sum of hinges, whatever (i, j) is.

  The steps, each read at an index over explicit coordinates:
    the squares of a row's differences summed along the row, kept as a column, plus ε, under the root  (a distance);
    the anchor's row repeated against each of the sixteen negatives, the squares summed along the last axis, plus ε,
      under the root  (sixteen distances per row);
    those sixteen summed along the row and kept as a column;
    16 · (distance to the positive) - (that sum) + 1, cut off below at 0  (the hinge, as a column);
    the column summed, kept as 1 × 1, and spread over the tile.
-/
import proofs.«121182_j16862041604543_2_alg».proof.Proof.Gen.KernelIdeal.Skeleton
import proofs.«121182_j16862041604543_2_alg».proof.Proof.LibColumnCasts
import proofs.«121182_j16862041604543_2_alg».proof.Proof.LibRank3Layout
import proofs.«121182_j16862041604543_2_alg».proof.Proof.LibScalarTile
import proofs.«121182_j16862041604543_2_alg».proof.Proof.TripletSpec

noncomputable section

namespace Cert.KernelIdeal.Body

open Cert.KernelIdeal Cert.KernelIdeal.Gen Idealize.ShloMosaic Idealize.ShloMosaic.ValueIdx
open scoped BigOperators

/-- The block's sum of hinges: row r has anchor x0 (r, ·), positive x1 (r, ·) and negatives x2 (r, n, ·). -/
def blockHinge (x0 x1 : FVec Ideal S256x512 .f32) (x2 : FVec Ideal S256x16x512 .f32) : EReal :=
  ∑ r : Fin 256, Triplet.hinge (fun d => x0 (ix2 r d)) (fun d => x1 (ix2 r d)) (fun n d => x2 (ix3 r n d))

/-- A matrix summed along its rows, kept as a column, plus ε, under the root: at (r, ·) the root of row r's sum plus ε. -/
theorem rootOfRowSum (v : FVec Ideal S256x512 .f32) (hr : S256x512.Reduces [1] S256) (hφ : FKind.Formats .f32)
    (hacc : (0x00000000#32 : BitVec 32) = 0x00000000#32) (hc : S256.ShapeCasts S256x1) (r : Fin 256) (u : Fin 1) :
    sqrt (addf (shapeCast S256x1 (multiReduction .add [1] S256 v 0x00000000#32 hr hφ hacc) hc)
        (broadcast S256x1 (Scalar.ofBits .f32 0x2B8CBCCC#32))) (ix2 r u)
      = Ideal.sqrt ((∑ k : Fin 512, v (ix2 r k)) + Ideal.ofBits .f32 0x2B8CBCCC#32) :=
  congrArg (fun z => Ideal.sqrt (z + Ideal.ofBits .f32 0x2B8CBCCC#32))
    ((Cert.ColumnCasts.shapeCast_a_a1_apply _ hc r u).trans (Cert.ColumnCasts.rowSum_apply v hr hφ hacc r))

/-- A stack summed along its last axis, plus ε, under the root: at (r, n) the root of that line's sum plus ε. -/
theorem rootOfLastSum (v : FVec Ideal S256x16x512 .f32) (hr : S256x16x512.Reduces [2] S256x16) (hφ : FKind.Formats .f32)
    (hacc : (0x00000000#32 : BitVec 32) = 0x00000000#32) (r : Fin 256) (n : Fin 16) :
    sqrt (addf (multiReduction .add [2] S256x16 v 0x00000000#32 hr hφ hacc)
        (broadcast S256x16 (Scalar.ofBits .f32 0x2B8CBCCC#32))) (ix2 r n)
      = Ideal.sqrt ((∑ k : Fin 512, v (ix3 r n k)) + Ideal.ofBits .f32 0x2B8CBCCC#32) :=
  congrArg (fun z => Ideal.sqrt (z + Ideal.ofBits .f32 0x2B8CBCCC#32)) (Cert.Rank3Layout.sumLast_apply v hr hφ hacc r n)

/-- The anchor's rows, each repeated sixteen times, read at (r, n, k): the anchor at (r, k). -/
theorem anchorRepeated (x0 : FVec Ideal S256x512 .f32) (hc : S256x512.ShapeCasts S256x1x512)
    (hb : S256x1x512.Broadcasts S256x16x512) (r : Fin 256) (n : Fin 16) (k : Fin 512) :
    broadcastTo S256x16x512 (shapeCast S256x1x512 x0 hc) hb (ix3 r n k) = x0 (ix2 r k) :=
  (Cert.Rank3Layout.broadcastTo_a1c_abc_apply _ hb r n k).trans (Cert.Rank3Layout.shapeCast_ab_a1b_apply x0 hc r (0 : Fin 1) k)

/-- Sixteen numbers per row summed along the row and kept as a column. -/
theorem rowTotalColumn (v : FVec Ideal S256x16 .f32) (hr : S256x16.Reduces [1] S256) (hφ : FKind.Formats .f32)
    (hacc : (0x00000000#32 : BitVec 32) = 0x00000000#32) (hc : S256.ShapeCasts S256x1) (r : Fin 256) (u : Fin 1) :
    shapeCast S256x1 (multiReduction .add [1] S256 v 0x00000000#32 hr hφ hacc) hc (ix2 r u) = ∑ n : Fin 16, v (ix2 r n) :=
  (Cert.ColumnCasts.shapeCast_a_a1_apply _ hc r u).trans (Cert.ColumnCasts.rowSum_apply v hr hφ hacc r)

/-- A column summed to one number, kept as 1 × 1 and spread over the tile: every entry is the column's sum. -/
theorem columnSpread (v : FVec Ideal S256x1 .f32) (hr : S256x1.Reduces [0] S1) (hφ : FKind.Formats .f32)
    (hacc : (0x00000000#32 : BitVec 32) = 0x00000000#32) (hc : S1.ShapeCasts S1x1) (hb : S1x1.Broadcasts S8x128)
    (i : Fin 8) (j : Fin 128) :
    broadcastTo S8x128 (shapeCast S1x1 (multiReduction .add [0] S1 v 0x00000000#32 hr hφ hacc) hc) hb (ix2 i j)
      = ∑ r : Fin 256, v (ix2 r (0 : Fin 1)) :=
  (Cert.ScalarTile.broadcastTo_11_ab_apply _ hb i j).trans
    ((Cert.ScalarTile.shapeCast_1_11_apply _ hc).trans (Cert.ScalarTile.columnTotal_apply v hr hφ hacc))

/-- The value the body stores, at an entry of the tile: the tile's old entry plus the block's sum of hinges. -/
theorem pay2_apply (x0 x1 : FVec Ideal S256x512 .f32) (x2 : FVec Ideal S256x16x512 .f32) (xo : FVec Ideal S8x128 .f32)
    (i : Fin 8) (j : Fin 128) :
    k0_pay2 (F := Ideal) x0 x1 x2 xo (ix2 i j) = xo (ix2 i j) + blockHinge x0 x1 x2 := by
  unfold k0_pay2
  simp only [shapeCast_self]
  show xo (ix2 i j) + broadcastTo S8x128 _ _ (ix2 i j) = _
  refine congrArg (xo (ix2 i j) + ·) ?_
  refine (columnSpread _ _ _ _ _ _ i j).trans ?_
  unfold blockHinge
  refine Finset.sum_congr rfl fun r _ => ?_
  show max (Ideal.ofBits .f32 0x41800000#32 * _ - _ + Ideal.ofBits .f32 0x3F800000#32) (Ideal.ofBits .f32 0x00000000#32) = _
  rw [rootOfRowSum, rowTotalColumn, Ideal.ofBits_zero_f32]
  simp only [mulf_apply, subf_apply]
  unfold Triplet.hinge Triplet.dist
  refine congrArg (fun z => max (Ideal.ofBits .f32 0x41800000#32
      * Ideal.sqrt ((∑ k : Fin 512, (x0 (ix2 r k) - x1 (ix2 r k)) * (x0 (ix2 r k) - x1 (ix2 r k))) + Ideal.ofBits .f32 0x2B8CBCCC#32)
      - z + Ideal.ofBits .f32 0x3F800000#32) 0) (Finset.sum_congr rfl fun n _ => ?_)
  rw [rootOfLastSum]
  refine congrArg (fun z => Ideal.sqrt (z + Ideal.ofBits .f32 0x2B8CBCCC#32)) (Finset.sum_congr rfl fun k _ => ?_)
  rw [mulf_apply, subf_apply, anchorRepeated]

/-- The value the first point of a group stores before anything else: the zero tile. -/
theorem pay1_apply (y : S8x128.Idx) : k0_pay1 (F := Ideal) y = 0 := Ideal.ofBits_zero_f32

end Cert.KernelIdeal.Body

end
-- ==== Proof.TripletKernel.lean ====
/-
  What the kernel's output array holds after the region.

  Grid point t (of 32) sees rows 256·t … 256·t + 255 of the three argument arrays as its blocks, so the number it
  adds to its tile is the sum of those rows' hinges.  Points 16·g … 16·g + 15 share tile g: the first of them starts
  from zero, each later one adds to what the point before left.  So after point n the tile holds, in every entry,
  the sum over n's group of sixteen up to n (by induction on the point).  The tile is written back to rows
  8·g … 8·g + 7 of the 16 × 128 output after the group's last point only, and the two groups' tiles cover the
  output: it ends holding, at row p, the whole sum of group p / 8.
-/
import proofs.«121182_j16862041604543_2_alg».proof.Proof.Gen.KernelIdeal.Frame
import proofs.«121182_j16862041604543_2_alg».proof.Proof.TripletPieces
import proofs.«121182_j16862041604543_2_alg».proof.Proof.TripletBody
import Idealize.ShloMosaic.Lib.Pipeline.Value

noncomputable section

namespace Cert.KernelIdeal.KValue

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

variable (m : (ℓ : Loc nD τ sig) → Buf (Elt Ideal) ℓ) (ρ : Dev nD → PrngReg)

/-- Row b's hinge, read off core c's three argument arrays (zero past the last row, where nothing is read). -/
def rowTerm (c : Dev nD) (b : ℕ) : EReal :=
  if hb : b < 8192 then
    Triplet.hinge (fun d => m ((c : Thread nD τ).loc main_arg0) (ix2 (⟨b, hb⟩ : Fin 8192) d))
      (fun d => m ((c : Thread nD τ).loc main_arg1) (ix2 (⟨b, hb⟩ : Fin 8192) d))
      (fun n d => m ((c : Thread nD τ).loc main_arg2) (ix3 (⟨b, hb⟩ : Fin 8192) n d))
  else 0

theorem rowTerm_nonneg (c : Dev nD) (b : ℕ) : 0 ≤ rowTerm m c b := by
  unfold rowTerm
  split
  · exact Triplet.hinge_nonneg _ _ _
  · exact le_refl _

/-- The sum of the hinges of block t's 256 rows. -/
abbrev blockTerm (c : Dev nD) : ℕ → EReal := fun t => ∑ r : Fin 256, rowTerm m c (256 * t + r.val)

/-! ## The blocks a point sees -/

/-- The printed index maps, decided over the grid: each input's block index along the rows is the point's number, the
    output's is the point's group. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 3) = t.val ∧ win0_2.index t (1 : Fin 3) = 0 ∧ win0_2.index t (2 : Fin 3) = 0
    ∧ win0_3.index t (0 : Fin 2) = t.val / 16 ∧ win0_3.index t (1 : Fin 2) = 0 :=
  (by decide +kernel : ∀ t : Fin grid0.N, _)

/-- Entry (r, d) of point t's anchor block is entry (256·t + r, d) of the anchor array. -/
theorem iblk0_apply (c : Dev nD) (t : Fin cfg0.N) (r : Fin 256) (d : Fin 512) (hb : 256 * t.val + r.val < 8192) :
    (iblk m c 0 t : Vec Ideal S256x512 .f32) (ix2 r d)
      = m ((c : Thread nD τ).loc main_arg0) (ix2 (⟨256 * t.val + r.val, hb⟩ : Fin 8192) d) := by
  obtain ⟨e0, e1, -⟩ := idx_facts t
  show V m c main_arg0 (((cfg0.win 0).blk t).view.emb (ix2 r d)) = _
  rw [V_main_arg0]
  refine congrArg (m ((c : Thread nD τ).loc main_arg0)) (funext fun a => Fin.ext ?_)
  match a with
  | ⟨0, _⟩ => show win0_0.index t (0 : Fin 2) * 256 + 1 * r.val = 256 * t.val + r.val; rw [e0]; omega
  | ⟨1, _⟩ => show win0_0.index t (1 : Fin 2) * 512 + 1 * d.val = d.val; rw [e1]; omega

/-- Likewise for the positives. -/
theorem iblk1_apply (c : Dev nD) (t : Fin cfg0.N) (r : Fin 256) (d : Fin 512) (hb : 256 * t.val + r.val < 8192) :
    (iblk m c 1 t : Vec Ideal S256x512 .f32) (ix2 r d)
      = m ((c : Thread nD τ).loc main_arg1) (ix2 (⟨256 * t.val + r.val, hb⟩ : Fin 8192) d) := by
  obtain ⟨-, -, e0, e1, -⟩ := idx_facts t
  show V m c main_arg1 (((cfg0.win 1).blk t).view.emb (ix2 r d)) = _
  rw [V_main_arg1]
  refine congrArg (m ((c : Thread nD τ).loc main_arg1)) (funext fun a => Fin.ext ?_)
  match a with
  | ⟨0, _⟩ => show win0_1.index t (0 : Fin 2) * 256 + 1 * r.val = 256 * t.val + r.val; rw [e0]; omega
  | ⟨1, _⟩ => show win0_1.index t (1 : Fin 2) * 512 + 1 * d.val = d.val; rw [e1]; omega

/-- And entry (r, n, d) of its negatives block is entry (256·t + r, n, d) of the negatives array. -/
theorem iblk2_apply (c : Dev nD) (t : Fin cfg0.N) (r : Fin 256) (n : Fin 16) (d : Fin 512) (hb : 256 * t.val + r.val < 8192) :
    (iblk m c 2 t : Vec Ideal S256x16x512 .f32) (ix3 r n d)
      = m ((c : Thread nD τ).loc main_arg2) (ix3 (⟨256 * t.val + r.val, hb⟩ : Fin 8192) n d) := by
  obtain ⟨-, -, -, -, e0, e1, e2, -⟩ := idx_facts t
  show V m c main_arg2 (((cfg0.win 2).blk t).view.emb (ix3 r n d)) = _
  rw [V_main_arg2]
  refine congrArg (m ((c : Thread nD τ).loc main_arg2)) (funext fun a => Fin.ext ?_)
  match a with
  | ⟨0, _⟩ => show win0_2.index t (0 : Fin 3) * 256 + 1 * r.val = 256 * t.val + r.val; rw [e0]; omega
  | ⟨1, _⟩ => show win0_2.index t (1 : Fin 3) * 16 + 1 * n.val = n.val; rw [e1]; omega
  | ⟨2, _⟩ => show win0_2.index t (2 : Fin 3) * 512 + 1 * d.val = d.val; rw [e2]; omega

/-- So the number point t adds to its tile is the sum of the hinges of rows 256·t … 256·t + 255. -/
theorem blockHinge_iblk (c : Dev nD) (t : Fin cfg0.N) :
    Body.blockHinge (iblk m c 0 t) (iblk m c 1 t) (iblk m c 2 t) = blockTerm m c t.val := by
  have hN : t.val < 32 := lt_of_lt_of_eq t.isLt (show cfg0.N = 32 from N_0)
  unfold Body.blockHinge
  refine Finset.sum_congr rfl fun r _ => ?_
  have hb : 256 * t.val + r.val < 8192 := by have := r.isLt; omega
  unfold rowTerm
  rw [dif_pos hb]
  have e0 : (fun d : Fin 512 => (iblk m c 0 t : Vec Ideal S256x512 .f32) (ix2 r d))
      = fun d => m ((c : Thread nD τ).loc main_arg0) (ix2 (⟨256 * t.val + r.val, hb⟩ : Fin 8192) d) :=
    funext fun d => iblk0_apply m c t r d hb
  have e1 : (fun d : Fin 512 => (iblk m c 1 t : Vec Ideal S256x512 .f32) (ix2 r d))
      = fun d => m ((c : Thread nD τ).loc main_arg1) (ix2 (⟨256 * t.val + r.val, hb⟩ : Fin 8192) d) :=
    funext fun d => iblk1_apply m c t r d hb
  have e2 : (fun (n : Fin 16) (d : Fin 512) => (iblk m c 2 t : Vec Ideal S256x16x512 .f32) (ix3 r n d))
      = fun n d => m ((c : Thread nD τ).loc main_arg2) (ix3 (⟨256 * t.val + r.val, hb⟩ : Fin 8192) n d) :=
    funext fun n => funext fun d => iblk2_apply m c t r n d hb
  exact (congrArg (fun a => Triplet.hinge a _ _) e0).trans
    ((congrArg (fun p => Triplet.hinge _ p _) e1).trans (congrArg (fun q => Triplet.hinge _ _ q) e2))

/-! ## One point -/

/-- A group's first point leaves zero plus its block's sum in every entry of the tile. -/
theorem pointFirst (c : Dev nD) (t : Fin cfg0.N) (h0 : t.val % 16 = 0) (p : Fin 8) (q : Fin 128) :
    outsAt0 m c t.val t.isLt (ix2 p q) = 0 + blockTerm m c t.val := by
  rw [outsAt0_A m c t h0]
  refine (congrFun (Pieces.out_A c (grid0.coords t) (ms0_0 t) (hs0_0 t) (ms0_1 t) (hs0_1 t) (ms0_2 t) (hs0_2 t) (ms0_3 t) (hs0_3 t)
    ((hcond0_0 t).mpr h0) (iblk m c 0 t) (iblk m c 1 t) (iblk m c 2 t)) (ix2 p q)).trans ?_
  refine (Body.pay2_apply (iblk m c 0 t) (iblk m c 1 t) (iblk m c 2 t) (k0_pay1 (F := Ideal)) p q).trans ?_
  rw [Body.pay1_apply, blockHinge_iblk m c t]

/-- Every other point adds its block's sum to what the point before left. -/
theorem pointNext (c : Dev nD) (t : Fin cfg0.N) (h0 : ¬t.val % 16 = 0) (p : Fin 8) (q : Fin 128) :
    outsAt0 m c t.val t.isLt (ix2 p q)
      = outsAt0 m c (t.val - 1) (Nat.lt_of_le_of_lt (Nat.sub_le _ _) t.isLt) (ix2 p q) + blockTerm m c t.val := by
  rw [outsAt0_B m c t h0]
  refine (congrFun (Pieces.out_B c (grid0.coords t) (ms0_0 t) (hs0_0 t) (ms0_1 t) (hs0_1 t) (ms0_2 t) (hs0_2 t) (ms0_3 t) (hs0_3 t)
    (fun h => h0 ((hcond0_0 t).mp h)) (iblk m c 0 t) (iblk m c 1 t) (iblk m c 2 t)
    (outsAt0 m c (t.val - 1) (Nat.lt_of_le_of_lt (Nat.sub_le _ _) t.isLt))) (ix2 p q)).trans ?_
  refine (Body.pay2_apply (iblk m c 0 t) (iblk m c 1 t) (iblk m c 2 t)
    (outsAt0 m c (t.val - 1) (Nat.lt_of_le_of_lt (Nat.sub_le _ _) t.isLt)) p q).trans ?_
  rw [blockHinge_iblk m c t]

/-! ## All points -/

/-- After point n every entry of the tile holds the sum over n's group of sixteen, up to n: by induction on the point. -/
theorem outsAt_eq (c : Dev nD) : ∀ (n : ℕ) (hn : n < cfg0.N) (p : Fin 8) (q : Fin 128),
    outsAt0 m c n hn (ix2 p q) = Triplet.groupSum (blockTerm m c) n
  | 0, hn, p, q => by
    rw [Triplet.groupSum_first _ 0 rfl]
    exact pointFirst m c ⟨0, hn⟩ rfl p q
  | n + 1, hn, p, q => by
    by_cases h0 : (n + 1) % 16 = 0
    · rw [Triplet.groupSum_first _ (n + 1) h0]
      exact pointFirst m c ⟨n + 1, hn⟩ h0 p q
    · rw [Triplet.groupSum_next _ (n + 1) h0]
      refine (pointNext m c ⟨n + 1, hn⟩ h0 p q).trans ?_
      show outsAt0 m c n _ (ix2 p q) + _ = Triplet.groupSum (blockTerm m c) n + _
      rw [outsAt_eq c n _ p q]

/-! ## The output array -/

/-- What the output array ends holding: at row p, every column, the whole sum of group p / 8. -/
def tileArray (c : Dev nD) : Buf (Elt Ideal) ((c : Thread nD τ).loc main_v0) :=
  fun i => Triplet.groupSum (blockTerm m c) (16 * ((i 0).val / 8) + 15)

/-- A group's last point writes back its rows of that array. -/
theorem flushed_eq (c : Dev nD) (t : Fin cfg0.N) (hf : (cfg0.win 3).flush t = true) :
    (dats m 0 c).flushed 3 t = ((cfg0.win 3).blk t).view.read (Elt Ideal) (tileArray m c) := by
  have hN : t.val < 32 := lt_of_lt_of_eq t.isLt (show cfg0.N = 32 from N_0)
  have h15 : t.val % 16 = 15 := (flush0_3 t).mp hf
  obtain ⟨-, -, -, -, -, -, -, e0, -⟩ := idx_facts t
  show (cfg0.win 3).cut (grid0.coords t) ((dats m 0 c).after 3 t) = _
  rw [after0_3]
  funext y
  obtain ⟨p, q, rfl⟩ : ∃ (p : Fin 8) (q : Fin 128), y = ix2 p q := ⟨y 0, y 1, eq_ix2 y⟩
  show outsAt0 m c t.val t.isLt (ix2 p q) = tileArray m c (((cfg0.win 3).blk t).view.emb (ix2 p q))
  rw [outsAt_eq m c t.val t.isLt p q]
  unfold tileArray
  refine congrArg (Triplet.groupSum (blockTerm m c)) ?_
  show t.val = 16 * ((win0_3.index t (0 : Fin 2) * 8 + 1 * p.val) / 8) + 15
  rw [e0]
  have := p.isLt
  omega

/-- An index of the output is in point t's block iff each coordinate is in the block's range on its axis. -/
theorem mem_blk (t : Fin cfg0.N) (i : S16x128.Idx) :
    i ∈ ((cfg0.win 3).blk t).view.set ↔ ∀ a : Fin 2, win0_3.index t a * S8x128.size a ≤ (i a).val ∧ (i a).val < win0_3.index t a * S8x128.size a + S8x128.size a := by
  show i ∈ ((View.whole main_v0).slice (win0_3.rect t)).set ↔ _
  rw [View.set_slice_whole, Rect.mem_set_unit]
  exact Iff.rfl

/-- Row p of the output lies in the block written back by the last point of group p / 8. -/
theorem cover (i : S16x128.Idx) : ∃ t : Fin cfg0.N, (cfg0.win 3).flush t = true ∧ i ∈ ((cfg0.win 3).blk t).view.set := by
  have hi0 : (i 0).val < 16 := (i 0).isLt
  have hi1 : (i 1).val < 128 := (i 1).isLt
  have hlt : 16 * ((i 0).val / 8) + 15 < cfg0.N := by rw [show cfg0.N = 32 from N_0]; omega
  refine ⟨⟨16 * ((i 0).val / 8) + 15, hlt⟩, (flush0_3 _).mpr (by show (16 * ((i 0).val / 8) + 15) % 16 = 15; omega), ?_⟩
  rw [mem_blk]
  obtain ⟨-, -, -, -, -, -, -, e0, e1⟩ := idx_facts ⟨16 * ((i 0).val / 8) + 15, hlt⟩
  intro a
  match a with
  | ⟨0, _⟩ =>
    show win0_3.index ⟨16 * ((i 0).val / 8) + 15, hlt⟩ (0 : Fin 2) * 8 ≤ (i 0).val
      ∧ (i 0).val < win0_3.index ⟨16 * ((i 0).val / 8) + 15, hlt⟩ (0 : Fin 2) * 8 + 8
    rw [e0]
    show (16 * ((i 0).val / 8) + 15) / 16 * 8 ≤ (i 0).val ∧ (i 0).val < (16 * ((i 0).val / 8) + 15) / 16 * 8 + 8
    omega
  | ⟨1, _⟩ =>
    show win0_3.index ⟨16 * ((i 0).val / 8) + 15, hlt⟩ (1 : Fin 2) * 128 ≤ (i 1).val
      ∧ (i 1).val < win0_3.index ⟨16 * ((i 0).val / 8) + 15, hlt⟩ (1 : Fin 2) * 128 + 128
    rw [e1]
    omega

/-- The output array after the region. -/
theorem final (c : Dev nD) : (dats m 0 c).arrAt 3 cfg0.N = tileArray m c :=
  (dats m 0 c).arrAt_eq_of_cover 3 (tileArray m c) (flushed_eq m c) cover

end Cert.KernelIdeal.KValue

end
-- ==== Proof.TripletRun.lean ====
/-
  The kernel's result: the lines after the region, and the run.

  After the region the program adds up, from zero, all 16 · 128 entries of the output array and multiplies the sum by
  the word for 2⁻¹⁰.  Row p of that array holds the whole sum of group p / 8 in each of its 128 columns, so the 2048
  entries are 1024 copies of each of the two group sums; the group sums are sums of hinges, hence nonnegative, and the
  law of the specification turns the scaled total into zero plus the plain sum of the 8192 rows' hinges.
-/
import proofs.«121182_j16862041604543_2_alg».proof.Proof.TripletKernel
import Idealize.ShloMosaic.Lib.StableHlo.Run
import Idealize.ShloMosaic.Lib.Tactic
import Idealize.ShloMosaic.PureOps.Ideal.Laws

noncomputable section

namespace Cert.KernelIdeal.KValue

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)
open scoped BigOperators

variable (m : (ℓ : Loc nD τ sig) → Buf (Elt Ideal) ℓ) (ρ : Dev nD → PrngReg)

/-- The result buffer is none of the region's arrays: the lines after the region are what leaves its contents. -/
theorem mem_result : main_v2 ∈ Pipeline.restRefs sig (cfgs 0).spec :=
  Pipeline.mem_restRefs_of main_v2 rfl (fun w => by fin_cases w <;> decide)

/-- The lines after the region, over the output array the region left: its total from zero, times the word for 2⁻¹⁰. -/
theorem tail_eq (c : Dev nD) :
    Pipeline.afterTail₀ cfgs (dats m) 0 (V0 m) [hostOps1] c main_v2
      = mulf (Host.reduceAdd (F := Ideal) (tileArray m c) (constant (F := Ideal) S_ .f32 0x00000000#32) reducesTo_S16x128_S_d0_1 h_S_)
          (constant (F := Ideal) S_ .f32 0x3A800000#32) := by
  unfold Pipeline.afterTail₀
  show StableHlo.after hostOps1 _ (Proc.devRef .tc main_v2) = _
  after_results
  have e : Pipeline.withArrays (cfgs 0).spec c (V0 m c) (fun w => (dats m 0 c).arrAt w (cfgs 0).N) (Proc.devRef .tc main_v0)
      = tileArray m c :=
    (Pipeline.withArrays_arr spec0 launch0.win.arr_inj c _ _ 3).trans (final m c)
  rw [e]

/-- The result: zero plus the sum of the 8192 rows' hinges. -/
theorem result_eq (c : Dev nD) :
    Pipeline.afterTail₀ cfgs (dats m) 0 (V0 m) [hostOps1] c main_v2 = fun _ => 0 + ∑ b : Fin 8192, rowTerm m c b.val := by
  rw [tail_eq]
  funext i
  show Ideal.hostReduceAdd reducesTo_S16x128_S_d0_1 (tileArray m c) (Ideal.ofBits .f32 0x00000000#32) i
      * Ideal.ofBits .f32 0x3A800000#32 = _
  rw [Ideal.hostReduceAdd_total reducesTo_S16x128_S_d0_1 (fun b => b.elim0) (tileArray m c) _ i, sum_idx2,
    Ideal.ofBits_zero_f32]
  exact Triplet.total_eq (rowTerm m c) (rowTerm_nonneg m c)

/-- The run, read: every weakly fair execution ends with the result at zero plus the sum of the rows' hinges, the three
    argument arrays unchanged. -/
theorem run : θ_run defs (onTc (τ := τ) (main (F := Ideal))) ⟨m, fun _ => 0, ρ⟩ fun r => ∀ c : Dev nD,
      r.2.mem ((c : Thread nD τ).loc main_v2) = (fun _ => 0 + ∑ b : Fin 8192, rowTerm m c b.val)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨((h c).2 main_v2 mem_result).trans (result_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.KernelIdeal.KValue

end
-- ==== Proof.TripletRef.lean ====
/-
  The reference computes the loss row by row.

  Its last operation adds up, from zero, one number per row b of the 8192; following that number back through the
  operations before it — the cut-off at 0, the margin, the difference, the sixteen-fold distance to the positive, the
  sum of the sixteen distances to the negatives, each distance a root of a row sum of squared differences plus ε, the
  anchor's row repeated against each negative by two broadcasts — gives row b's hinge.  So the result is zero plus the
  sum of the rows' hinges.
-/
import proofs.«121182_j16862041604543_2_alg».proof.Proof.Gen.ReferenceIdeal.Read
import proofs.«121182_j16862041604543_2_alg».proof.Proof.LibColumnCasts
import proofs.«121182_j16862041604543_2_alg».proof.Proof.TripletSpec

noncomputable section

namespace Cert.ReferenceIdeal.RefValue

open Cert.ReferenceIdeal Cert.ReferenceIdeal.Read Idealize.ShloMosaic Idealize.ShloMosaic.ValueIdx
open scoped BigOperators

/-- The loss: the sum over the 8192 rows of the row's hinge. -/
def loss (A P : FVec Ideal S8192x512 .f32) (Q : FVec Ideal S8192x16x512 .f32) : EReal :=
  ∑ b : Fin 8192, Triplet.hinge (fun d => A (ix2 b d)) (fun d => P (ix2 b d)) (fun n d => Q (ix3 b n d))

/-- Entry k of row b, as the row sum of the matrix reads it. -/
theorem idx_rowEntry (b : Fin 8192) (k : Fin 512) : idx_main_v2 (ix1 b) k = ix2 b k :=
  funext fun a => Fin.ext (by match a with | ⟨0, _⟩ => rfl | ⟨1, _⟩ => rfl)

/-- Negative n of row b, as the sum over the sixteen reads it. -/
theorem idx_rowNeg (b : Fin 8192) (n : Fin 16) : idx_main_v16 (ix1 b) n = ix2 b n :=
  funext fun a => Fin.ext (by match a with | ⟨0, _⟩ => rfl | ⟨1, _⟩ => rfl)

/-- Entry k of negative n of row b, as the sum along the last axis reads it. -/
theorem idx_negEntry (b : Fin 8192) (n : Fin 16) (k : Fin 512) : idx_main_v10 (ix2 b n) k = ix3 b n k :=
  funext fun a => Fin.ext (by match a with | ⟨0, _⟩ => rfl | ⟨1, _⟩ => rfl | ⟨2, _⟩ => rfl)

/-- The anchor repeated by the two broadcasts reads, at (b, n, k), the anchor's entry (b, k). -/
theorem idx_anchor (b : Fin 8192) (n : Fin 16) (k : Fin 512) : idx_main_v6 (idx_main_v7 (ix3 b n k)) = ix2 b k :=
  funext fun a => Fin.ext (by match a with | ⟨0, _⟩ => rfl | ⟨1, _⟩ => rfl)

/-- Row b's number before the last sum is row b's hinge. -/
theorem row_eq (x0 x1 : FVec Ideal S8192x512 .f32) (x2 : FVec Ideal S8192x16x512 .f32) (b : Fin 8192) :
    val_main_v20 (F := Ideal) x0 x1 x2 (ix1 b)
      = Triplet.hinge (fun d => x0 (ix2 b d)) (fun d => x1 (ix2 b d)) (fun n d => x2 (ix3 b n d)) := by
  simp only [val_main_v20_apply, val_main_v19_apply, val_main_v18_apply, val_main_v17_apply, val_main_v16_apply,
    val_main_v15_apply, val_main_v14_apply, val_main_v13_apply, val_main_v12_apply, val_main_v11_apply,
    val_main_v10_apply, val_main_v9_apply, val_main_v8_apply, val_main_v7_apply, val_main_v6_apply, val_main_v5_apply,
    val_main_v4_apply, val_main_v3_apply, val_main_v2_apply, val_main_v1_apply, val_main_v0_apply,
    val_main_call0_v0_apply, val_main_call0_cst_apply, val_main_cst_apply, val_main_cst_0_apply, val_main_cst_1_apply,
    val_main_cst_2_apply, val_main_cst_3_apply, val_main_cst_4_apply, val_main_cst_5_apply,
    Ideal.addf_def, Ideal.subf_def, Ideal.mulf_def, Ideal.maximumf_def, Ideal.hostUnary_sqrt_def, Ideal.ofBits_def,
    Ideal.ofBits_zero_f32, zero_add, idx_rowEntry, idx_rowNeg, idx_negEntry, idx_anchor]
  rfl

/-- The reference's result, at its one index, is zero plus the loss. -/
theorem result_eq (x0 x1 : FVec Ideal S8192x512 .f32) (x2 : FVec Ideal S8192x16x512 .f32) (i : S_.Idx) :
    val_main_v21 (F := Ideal) x0 x1 x2 i = 0 + loss x0 x1 x2 := by
  rw [val_main_v21_apply, Cert.ColumnCasts.sum_vectorIdx, val_main_cst_6_apply]
  show Ideal.ofBits .f32 0x00000000#32 + _ = _
  rw [Ideal.ofBits_zero_f32]
  unfold loss
  exact congrArg (0 + ·) (Finset.sum_congr rfl fun b _ => row_eq x0 x1 x2 b)

end Cert.ReferenceIdeal.RefValue

end
-- ==== Proof.lean ====
/-
  The triplet margin loss over 8192 rows: a kernel that adds it up tile by tile against a reference that adds it up
  row by row.

  For row b, with anchor a, positive p and sixteen negatives q n (512 entries each), the hinge is
    max (16 · sqrt (Σ_d (a - p)² + ε) - Σ_n sqrt (Σ_d (a - q n)² + ε) + 1) 0,
  and both programs return the sum of the 8192 hinges.

  The reference computes each row's hinge with whole-array operations and adds the rows up from zero.

  The kernel walks a 2 × 16 grid.  Point t holds rows 256·t … 256·t + 255; it adds their hinges into one number and
  adds that number to every entry of an 8 × 128 tile shared by the sixteen points of its group (zeroed at the group's
  first point, written back to rows 8·g … 8·g + 7 of a 16 × 128 array after its last).  The lines after the region add
  up all 2048 entries from zero and multiply by 2⁻¹⁰.  Each group's sum therefore appears 1024 times; the group sums
  are nonnegative, so over the extended reals the copies add up to 1024 times the sum, the factor 2⁻¹⁰ distributes
  over the two groups and cancels the 1024, and what is left is the sum of all rows' hinges, regrouped.  No finiteness
  of the inputs is used: the argument is nonnegativity and the associativity and commutativity of the sum.

  The three frame claims are the generated frames (the reference's is its generated run with the result dropped);
  the idealization rewrote nothing, so its claim is trivial.
-/
import proofs.«121182_j16862041604543_2_alg».proof.Defs
import proofs.«121182_j16862041604543_2_alg».proof.Proof.Gen.Kernel
import proofs.«121182_j16862041604543_2_alg».proof.Proof.Gen.Kernel.Skeleton
import proofs.«121182_j16862041604543_2_alg».proof.Proof.Gen.Kernel.Launch
import proofs.«121182_j16862041604543_2_alg».proof.Proof.Gen.Kernel.Points
import proofs.«121182_j16862041604543_2_alg».proof.Proof.Gen.Kernel.Frame
import proofs.«121182_j16862041604543_2_alg».proof.Proof.Gen.KernelIdeal
import proofs.«121182_j16862041604543_2_alg».proof.Proof.Gen.KernelIdeal.Skeleton
import proofs.«121182_j16862041604543_2_alg».proof.Proof.Gen.KernelIdeal.Launch
import proofs.«121182_j16862041604543_2_alg».proof.Proof.Gen.KernelIdeal.Points
import proofs.«121182_j16862041604543_2_alg».proof.Proof.Gen.KernelIdeal.Frame
import proofs.«121182_j16862041604543_2_alg».proof.Proof.Gen.ReferenceIdeal
import proofs.«121182_j16862041604543_2_alg».proof.Proof.Gen.ReferenceIdeal.Run
import proofs.«121182_j16862041604543_2_alg».proof.Proof.Gen.ReferenceIdeal.Read
import proofs.«121182_j16862041604543_2_alg».proof.Proof.Gen.Pre_finite_inputs
import proofs.«121182_j16862041604543_2_alg».proof.Proof.TripletRun
import proofs.«121182_j16862041604543_2_alg».proof.Proof.TripletRef
import Idealize.ShloMosaic.Adequacy
import Idealize.ShloMosaic.Init

noncomputable section

namespace Cert.Proof

open Idealize.ShloMosaic Idealize.ShloMosaic.TcCoe Idealize.SL.Sem
open scoped BigOperators

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result at zero plus the sum of the rows' hinges of argument arrays that agree. -/
theorem algebraic : Cert.algebraic_KernelIdeal_ReferenceIdeal := by
  intro m ρ m' ρ' _ hagree
  refine ⟨fun c => (fun _ => 0 + ∑ b : Fin 8192, Cert.KernelIdeal.KValue.rowTerm m c b.val),
    Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v21_eq, (hagree c).1, (hagree c).2.1, (hagree c).2.2]
  funext i
  rw [Cert.ReferenceIdeal.RefValue.result_eq]
  refine congrArg (0 + ·) (Finset.sum_congr rfl fun b _ => ?_)
  unfold Cert.KernelIdeal.KValue.rowTerm
  rw [dif_pos b.isLt]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
